-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100 : Shape := ⟨1, ![100]⟩
abbrev S_ : Shape := ⟨0, ![]⟩

class Facts : Prop where
  bcast_S_S100 : S_.BroadcastsInDim S100 (![] : Fin 0 → Fin S100.rank)
  reducesTo_S100_S_d0 : S100.ReducesTo [0] S_
  h_S_ : 0 < S_.numel

variable [Facts]

def fn {F : FTy → Type} [FloatOps F] (main_arg0 : FVec F S100 .f32) : IVec S_ 1 :=
  let main_v0 : FVec F S100 .f32 := Host.absf main_arg0
  let main_cst : FVec F S_ .f32 := constant S_ .f32 0x7F800000#32
  let main_v1 : FVec F S100 .f32 := broadcastInDim S100 ![] bcast_S_S100 main_cst
  let main_v2 : IVec S100 1 := cmpf .olt main_v0 main_v1
  let main_c : IVec S_ 1 := constantI S_ 1 1#1
  let main_v3 : IVec S_ 1 := (fun x v => Host.reduce IntOp.andi x v reducesTo_S100_S_d0 h_S_) main_v2 main_c
  main_v3
-- ==== Kernel.lean ====
abbrev S100 : Shape := ⟨1, ![100]⟩
abbrev S32 : Shape := ⟨1, ![32]⟩
abbrev S112 : Shape := ⟨1, ![112]⟩
abbrev S_ : Shape := ⟨0, ![]⟩
abbrev S16 : Shape := ⟨1, ![16]⟩

abbrev nBuf : Table → Nat
  | .hbm => 2
  | .local .scVector .vmem => 2
  | _ => 0

abbrev bufTy : (tb : Table) → Fin (nBuf tb) → BufTy
  | .hbm, ⟨0, _⟩ => ⟨S100, .f32⟩
  | .hbm, ⟨1, _⟩ => ⟨S100, .f32⟩
  | .local .scVector .vmem, ⟨0, _⟩ => ⟨S32, .f32⟩
  | .local .scVector .vmem, ⟨1, _⟩ => ⟨S112, .f32⟩
  | _, _ => ⟨S100, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100_S32_0 : ∀ a, (![0] : Fin 1 → Nat) a + S32.size a ≤ S100.size a
  inb_S32_S16_0 : ∀ a, (![0] : Fin 1 → Nat) a + S16.size a ≤ S32.size a
  h_S16 : 0 < S16.numel
  shapeCasts_S16_S16 : S16.ShapeCasts S16
  inb_S112_S16_0 : ∀ a, (![0] : Fin 1 → Nat) a + S16.size a ≤ S112.size a
  iota_S16_d0_w32_scVector : S16.Iotas .scVector 32 [0]
  inb_S32_S16_16 : ∀ a, (![16] : Fin 1 → Nat) a + S16.size a ≤ S32.size a
  inb_S112_S16_16 : ∀ a, (![16] : Fin 1 → Nat) a + S16.size a ≤ S112.size a
  inb_S112_S16_32 : ∀ a, (![32] : Fin 1 → Nat) a + S16.size a ≤ S112.size a
  inb_S112_S16_48 : ∀ a, (![48] : Fin 1 → Nat) a + S16.size a ≤ S112.size a
  inb_S112_S16_64 : ∀ a, (![64] : Fin 1 → Nat) a + S16.size a ≤ S112.size a
  inb_S112_S16_80 : ∀ a, (![80] : Fin 1 → Nat) a + S16.size a ≤ S112.size a
  inb_S112_S16_96 : ∀ a, (![96] : Fin 1 → Nat) a + S16.size a ≤ S112.size a
  inb_S112_S100_0 : ∀ a, (![0] : Fin 1 → Nat) a + S100.size a ≤ S112.size a
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S100 : Shape := ⟨1, ![100]⟩
abbrev S_ : Shape := ⟨0, ![]⟩
abbrev S26 : Shape := ⟨1, ![26]⟩
abbrev S26x1 : Shape := ⟨2, ![26, 1]⟩

abbrev nBuf : Space → Nat
  | .hbm => 17
  | .vmem => 0
  | .smem => 0
  | _ => 0

abbrev bufTy : (tb : Table) → Fin (tcTables nBuf tb) → BufTy
  | .hbm, ⟨0, _⟩ => ⟨S100, .f32⟩
  | .hbm, ⟨1, _⟩ => ⟨S_, .f32⟩
  | .hbm, ⟨2, _⟩ => ⟨S100, .f32⟩
  | .hbm, ⟨3, _⟩ => ⟨S26, .i32⟩
  | .hbm, ⟨4, _⟩ => ⟨S26, .f32⟩
  | .hbm, ⟨5, _⟩ => ⟨S_, .f32⟩
  | .hbm, ⟨6, _⟩ => ⟨S26, .f32⟩
  | .hbm, ⟨7, _⟩ => ⟨S26, .f32⟩
  | .hbm, ⟨8, _⟩ => ⟨S_, .i32⟩
  | .hbm, ⟨9, _⟩ => ⟨S26, .i32⟩
  | .hbm, ⟨10, _⟩ => ⟨S26, .i1⟩
  | .hbm, ⟨11, _⟩ => ⟨S_, .i32⟩
  | .hbm, ⟨12, _⟩ => ⟨S26, .i32⟩
  | .hbm, ⟨13, _⟩ => ⟨S26, .i32⟩
  | .hbm, ⟨14, _⟩ => ⟨S26, .i32⟩
  | .hbm, ⟨15, _⟩ => ⟨S26x1, .i32⟩
  | .hbm, ⟨16, _⟩ => ⟨S100, .f32⟩
  | _, _ => ⟨S100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S100 : S_.BroadcastsInDim S100 (![] : Fin 0 → Fin S100.rank)
  slices_S100_S26_0 : S100.Slices ![0] S26
  bcast_S_S26 : S_.BroadcastsInDim S26 (![] : Fin 0 → Fin S26.rank)
  bcast_S26_S26x1_0 : S26.BroadcastsInDim S26x1 (![0] : Fin 1 → Fin S26x1.rank)
  scatter_S100_S26x1_S26_n_0_0_1_wf : ScatterDims.WF S100 S26x1 S26 [] [0] [0] 1

variable [Facts₀]

def scatter_S100_S26x1_S26_n_0_0_1 : ScatterDims S100 S26x1 S26 where
  updateWindowDims := []
  insertedWindowDims := [0]
  scatterDimsToOperandDims := [0]
  indexVectorDim := 1
  wf := scatter_S100_S26x1_S26_n_0_0_1_wf

class Facts : Prop extends Facts₀ where

variable [Facts]
-- ==== Proof.RunKI.lean ====
/-
  The run of the idealized kernel program, for any float instance.

  One vector-subcore kernel on one SparseCore and its sixteen subcores. Every subcore evaluates the guard "core index
  is zero and subcore index is zero"; subcore 0 alone passes it and does all the work: it copies elements [0, 32) of
  the argument into a scratch vector and waits for the copy, assembles 112 elements in a second scratch vector by seven
  stores of sixteen, copies the first hundred of them onto the whole result and waits. The other fifteen subcores
  return at once. So the call hands the argument and the result to subcore 0 only, and every weakly fair execution of
  the device's threads terminates with the argument unchanged and the result at the term `outK` of the argument.
-/
import proofs.«202516_g10806137717294_week1_w2_1257_7_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«202516_g10806137717294_week1_w2_1257_7_alg».proof.Proof.Gen.KernelIdeal
import proofs.«202516_g10806137717294_week1_w2_1257_7_alg».proof.Proof.Gen.KernelIdeal.Skeleton

noncomputable section

namespace Cert.Proof.RunKI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the counters of the task's own two copies

The task's two copies are local (HBM to its own memory and back), each waited for right after it is issued, so they
need no schedule: a counter per DMA semaphore is all the ghost state they take. -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The argument `x` and the result `o`, as locations of device `d`. -/
abbrev xLoc (d : Dev nD) : Loc nD τ sig := (SparseCore.T d).loc main_arg0
abbrev oLoc (d : Dev nD) : Loc nD τ sig := (SparseCore.T d).loc main_v0

variable [FloatOps F]

abbrev xV : Memref sig .scVector .hbm S100 .f32 := Memref.whole main_arg0_scv
abbrev oV : Memref sig .scVector .hbm S100 .f32 := Memref.whole main_v0_scv
/-- A task's two scratch vectors: 32 fetched elements of `x`, and the 112 elements it assembles. -/
abbrev sA : Memref sig .scVector .vmem S32 .f32 := Memref.whole cc0_scratch0
abbrev sB : Memref sig .scVector .vmem S112 .f32 := Memref.whole cc0_scratch1

abbrev xPts (d : Dev nD) : sProp 𝕄 := xLoc d ↦{fullShare} m (xLoc d)
abbrev oPts (d : Dev nD) (f : Buf (Elt F) (oLoc d)) : sProp 𝕄 := oLoc d ↦{fullShare} f

/-! ## What the working task leaves in the result, as a term of the argument

Elements `[0, 32)` of `x` land in the first scratch; the second scratch is filled by seven stores of sixteen
elements each — the doubled first sixteen, the doubled next sixteen masked to their first ten lanes, five vectors of
zeros — and its first hundred elements are copied onto the whole result. The prior contents of the scratches and
of the result enter the term, and drop out of its value (every element read was written first). -/

/-- What the fetch lands in the first scratch: `x` read through the slice `[0, 32)`. -/
def landed (x : S100.Idx → Elt F .f32) : S32.Idx → Elt F .f32 :=
  View.read (Elt F) (xV.slice (Rect.unit (s := S100) ![0] S32.size inb_S100_S32_0) (fun _ => rfl)).view x

/-- The first scratch after the fetch, over its prior contents `fs`. -/
def fetched (x : S100.Idx → Elt F .f32) (fs : S32.Idx → Elt F .f32) : S32.Idx → Elt F .f32 :=
  View.write (Elt F) (sA : Memref sig .scVector .vmem S32 .f32).view fs (landed x) Finset.univ

/-- The seven stores into the second scratch, the last one first. -/
def stores (x : S100.Idx → Elt F .f32) (fs : S32.Idx → Elt F .f32) : List (View.Piece (Elt F) S112 .f32) :=
  [⟨Rect.unit (s := S112) ![96] S16.size inb_S112_S16_96, k0_pay1 k0_pay4⟩,
    ⟨Rect.unit (s := S112) ![80] S16.size inb_S112_S16_80, k0_pay8⟩,
    ⟨Rect.unit (s := S112) ![64] S16.size inb_S112_S16_64, k0_pay7⟩,
    ⟨Rect.unit (s := S112) ![48] S16.size inb_S112_S16_48, k0_pay6⟩,
    ⟨Rect.unit (s := S112) ![32] S16.size inb_S112_S16_32, k0_pay5⟩,
    ⟨Rect.unit (s := S112) ![16] S16.size inb_S112_S16_16,
      k0_pay3 (View.readAt (Elt F) (sA : Memref sig .scVector .vmem S32 .f32).view (Rect.unit (s := S32) ![16] S16.size inb_S32_S16_16).toLoadRect (fetched x fs))⟩,
    ⟨Rect.unit (s := S112) ![0] S16.size inb_S112_S16_0,
      k0_pay2 (View.readAt (Elt F) (sA : Memref sig .scVector .vmem S32 .f32).view (Rect.unit (s := S32) ![0] S16.size inb_S32_S16_0).toLoadRect (fetched x fs))⟩]

/-- The result array after the write-out, over the prior contents `fs`, `fc` of the scratches and `fo` of the result. -/
def outK (x : S100.Idx → Elt F .f32) (fs : S32.Idx → Elt F .f32) (fc : S112.Idx → Elt F .f32) (fo : S100.Idx → Elt F .f32) : S100.Idx → Elt F .f32 :=
  View.write (Elt F) (oV : Memref sig .scVector .hbm S100 .f32).view fo
    (View.read (Elt F) ((sB : Memref sig .scVector .vmem S112 .f32).slice (Rect.unit (s := S112) ![0] S100.size inb_S112_S100_0) (fun _ => rfl)).view
      ((sB : Memref sig .scVector .vmem S112 .f32).view.writes (Elt F) fc (stores x fs))) Finset.univ

/-- The result holds what the working task leaves, from some prior contents. -/
def Rel (d : Dev nD) (x : Buf (Elt F) (xLoc d)) (f : Buf (Elt F) (oLoc d)) : Prop :=
  ∃ (fs : S32.Idx → Elt F .f32) (fc : S112.Idx → Elt F .f32) (fo : S100.Idx → Elt F .f32), f = outK x fs fc fo

/-! ## What the handshakes carry

The call hands the one SparseCore of its grid `x` and `o` whole; its sequencer hands both to subcore 0, the one task
that works, and nothing to the other fifteen; they come back the same way, `o` at what the task left. -/

def tileIn (d : Dev nD) (n : ℕ) : sProp 𝕄 := if n = 0 then iprop(xPts m d ∗ ∃ f, oPts d f) else iprop(emp)
def tileOut (d : Dev nD) (n : ℕ) : sProp 𝕄 := if n = 0 then iprop(xPts m d ∗ ∃ f, ⌜Rel d (m (xLoc d)) f⌝ ∗ oPts d f) else iprop(emp)

theorem tileIn_zero (d : Dev nD) : tileIn m d 0 = iprop(xPts m d ∗ ∃ f, oPts d f) := if_pos rfl
theorem tileOut_zero (d : Dev nD) : tileOut m d 0 = iprop(xPts m d ∗ ∃ f, ⌜Rel d (m (xLoc d)) f⌝ ∗ oPts d f) := if_pos rfl
theorem tileIn_pos (d : Dev nD) {n : ℕ} (h : n ≠ 0) : tileIn m d n = iprop(emp) := if_neg h
theorem tileOut_pos (d : Dev nD) {n : ℕ} (h : n ≠ 0) : tileOut m d n = iprop(emp) := if_neg h

instance tileIn_storable (d : Dev nD) (n : ℕ) : BI.Storable (upEmb : UEmb _ 𝕄) (tileIn m d n) := by
  unfold tileIn; split <;> infer_instance
instance tileOut_storable (d : Dev nD) (n : ℕ) : BI.Storable (upEmb : UEmb _ 𝕄) (tileOut m d n) := by
  unfold tileOut; split <;> infer_instance

def P : (K (F := F)).Pay (nD := nD) (Val := Elt F) (Name := ℕ) (U := UU) where
  st := fun _ d _ => iprop(xPts m d ∗ ∃ f, oPts d f)
  dn := fun _ d _ => iprop(xPts m d ∗ ∃ f, ⌜Rel d (m (xLoc d)) f⌝ ∗ oPts d f)
  go := fun _ d _ i => tileIn m d i.val
  td := fun _ d _ i => tileOut m d i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The task -/

section Tile

variable (d : Dev nD) (L : grid0.Coords)

abbrev cV (L : grid0.Coords) : Fin τ.nSC := (L 0).castLE hcore0
abbrev jV (L : grid0.Coords) : Fin τ.nSub := (L 1).castLE hsub0

/-- The two DMA semaphores of the task's copies. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The two scratch vectors are among the subcore's own buffers: they are those two, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The arrays as a subcore's memrefs address them are the device's arrays. -/
theorem pts_x (f : Buf (Elt F) (xLoc d)) :
    ((xV).view.loc (V d (cV L) (jV L)) ↦{fullShare} f : sProp 𝕄) = xLoc d ↦{fullShare} f := by
  simp only [Memref.view_whole, View.set_whole]
omit [FloatOps F] in
theorem pts_o (f : Buf (Elt F) (oLoc d)) :
    ((oV).view.loc (V d (cV L) (jV L)) ↦{fullShare} f : sProp 𝕄) = oLoc d ↦{fullShare} f := by
  simp only [Memref.view_whole, View.set_whole]
omit [FloatOps F] in
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
omit [FloatOps F] in
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl

/-- The kernel's guard at the coordinates `L` (core index zero and subcore index zero), as its text spells it. -/
abbrev guard (L : grid0.Coords) : BitVec 1 :=
  Scalar.cmpi .ne (Scalar.extui (Scalar.andi (Scalar.cmpi .eq (BitVec.ofNat 32 (L 0).val) 0#32) (Scalar.cmpi .eq (BitVec.ofNat 32 (L 1).val) 0#32))) 0#32

/-- Over the grid (one SparseCore, sixteen subcores) the guard holds exactly at subcore 0. -/
theorem guard_spec : ∀ (a : Fin (grid0.bound 0)) (s : Fin (grid0.bound 1)),
    (Scalar.cmpi .ne (Scalar.extui (Scalar.andi (Scalar.cmpi .eq (BitVec.ofNat 32 a.val) 0#32) (Scalar.cmpi .eq (BitVec.ofNat 32 s.val) 0#32))) 0#32 = 1#1) ↔ s.val = 0 := by
  decide

theorem guard_iff : guard L = 1#1 ↔ (L 1).val = 0 := guard_spec (L 0) (L 1)

/-- The working task: the fetch and its wait, the seven stores, the write-out and its wait. `x` comes back unchanged
    and `o` at `outK` of `x` and the prior contents. -/
theorem tile_work (hF : (K (F := F)).Facts) (hL : guard L = 1#1) (O : CellTallies nD τ sig (HIx 1)) (W : Waits sig (HIx 1)) (hO : ∀ g, O g none = 0) :
    iprop(levAts (K (F := F)).L (K (F := F)).lev ∗ emp ∗ (xPts m d ∗ ∃ f, oPts d f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__scatter_double L xV (Memref.isWhole_whole _) oV (Memref.isWhole_whole _) sA (Memref.isWhole_whole _) sB (Memref.isWhole_whole _) cc0_scoped0 cc0_scoped1)
          fun _ => iprop((xPts m d ∗ ∃ f, ⌜Rel d (m (xLoc d)) f⌝ ∗ oPts d f) ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 : guard L = 1#1 := hL
  simp only [cc0__scatter_double_eq_skeleton]; unfold cc0__scatter_double_skel
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%fs, Hs⟩, ⟨%fc, Hc⟩, Hbufs⟩, ⟨HsemA, HsemB, Hsems⟩, HO⟩
  ihave Hmw := ((K (F := F)).mayWaits_none (thr := V d (cV L) (jV L)) hO) $$ Hlv
  ihave Hx' := (Entails.of_eq (pts_x (F := F) d L _).symm) $$ Hx
  ihave Ho' := (Entails.of_eq (pts_o (F := F) d L _).symm) $$ Ho
  ihave Hs' := (Entails.of_eq (pts_sA (F := F) d L _).symm) $$ Hs
  ihave Hc' := (Entails.of_eq (pts_sB (F := F) d L _).symm) $$ Hc
  sl_exec
  sl_step
  isplitl [Hx' Ho']
  · isplitl [Hx']; · iapply (Entails.of_eq (pts_x (F := F) d L _)); iexact Hx'
    iexists _; isplitr
    · ipureintro; exact ⟨fs, fc, fo, rfl⟩
    · iapply (Entails.of_eq (pts_o (F := F) d L _)); iexact Ho'
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  iexact HO

/-- Any other task: the guard fails and the body returns at once. -/
theorem tile_idle (hL : ¬ guard L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__scatter_double L xV (Memref.isWhole_whole _) oV (Memref.isWhole_whole _) sA (Memref.isWhole_whole _) sB (Memref.isWhole_whole _) cc0_scoped0 cc0_scoped1)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 : ¬ guard L = 1#1 := hL
  simp only [cc0__scatter_double_eq_skeleton]; unfold cc0__scatter_double_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__scatter_double (coordsV c s)
          xV (Memref.isWhole_whole _) oV (Memref.isWhole_whole _) sA (Memref.isWhole_whole _) sB (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at the one call: subcore 0 runs `tile_work`, every other subcore `tile_idle`. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ tileIn m d i.val ∗ _) ⊢ wp _ _ _ _ (fun _ => iprop(tileOut m d i.val ∗ _))
  by_cases hi : i.val = 0
  · rw [hi, tileIn_zero, tileOut_zero]
    exact (tile_work m d (coordsV ⟨_, hc.1⟩ ⟨_, hc.2⟩) hF ((guard_iff _).mpr hi) O W hO).trans (wp_mono frame _ _ fun _ => obl_post)
  · rw [tileIn_pos m d hi, tileOut_pos m d hi]
    exact (tile_idle d (coordsV ⟨_, hc.1⟩ ⟨_, hc.2⟩) (fun h => hi ((guard_iff _).mp h)) O W).trans (wp_mono frame _ _ fun _ => obl_post)

omit [FloatOps F] in
theorem bigSep_emp' {I : Type} (s : Finset I) : (bigSep s fun _ => iprop(emp)) = (iprop(emp) : sProp 𝕄) := bigSep_emp_const s

omit [FloatOps F] in
/-- A family over the sixteen tasks that is `emp` off task 0 is its member at task 0. -/
theorem tasks_eq (Φ : ℕ → sProp 𝕄) (h : ∀ n, n ≠ 0 → Φ n = iprop(emp)) :
    (bigSep Finset.univ fun i : Fin ((K (F := F)).nSub 0) => Φ i.val) = iprop(Φ 0 ∗ emp) := by
  show (bigSep (Finset.univ : Finset (Fin 16)) fun i => Φ i.val) = _
  rw [SparseCore.bigSep_erase' (Finset.mem_univ (0 : Fin 16)),
    bigSep_congr (fun i hi => h i.val (fun e => (Finset.mem_erase.mp hi).1 (Fin.ext e))), bigSep_emp']
  rfl

theorem vecSplit : (K (F := F)).VecSplit' (P m) 0 := by
  intro d c
  show iprop(xPts m d ∗ ∃ f, oPts d f) ⊢ |={Set.univ}=> iprop(
      (bigSep Finset.univ fun i : Fin ((K (F := F)).nSub 0) => tileIn m d i.val)
      ∗ ((bigSep Finset.univ fun i : Fin ((K (F := F)).nSub 0) => tileOut m d i.val)
          -∗ iprop(xPts m d ∗ ∃ f, ⌜Rel d (m (xLoc d)) f⌝ ∗ oPts d f)))
  rw [tasks_eq (F := F) (tileIn m d) (fun n hn => tileIn_pos m d hn), tasks_eq (F := F) (tileOut m d) (fun n hn => tileOut_pos m d hn),
    tileIn_zero, tileOut_zero]
  iintro H; imodintro
  isplitl [H]
  · isplitl [H]; · iexact H
    iempintro
  iintro ⟨H, -⟩; iexact H

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c) = iprop(xPts m d ∗ ∃ f, oPts d f) :=
  bigSep_univ_of_subsingleton (0 : Fin 1)
theorem dn0_eq (d : Dev nD) : (bigSep Finset.univ fun c : Fin ((K (F := F)).nCore 0) => (P m).dn 0 d c) = iprop(xPts m d ∗ ∃ f, ⌜Rel d (m (xLoc d)) f⌝ ∗ oPts d f) :=
  bigSep_univ_of_subsingleton (0 : Fin 1)

/-- What @main leaves the claim: `x` at its launch contents, `o` at what the working task left. -/
abbrev FIN (d : Dev nD) : sProp 𝕄 := iprop(xPts m d ∗ ∃ f, ⌜Rel d (m (xLoc d)) f⌝ ∗ oPts d f)

/-- @main on device `d`'s TensorCore: the one call, from `x` and `o` whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexists _; iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (xLoc d) = m (xLoc d) ∧ Rel d (m (xLoc d)) (s'.mem.mem (oLoc d))

theorem hfin (d : Dev nD) (s' : Phys nD τ sig (Elt F)) : iprop(FIN m d ∗ SI s') ⊢ (⌜fq m d s'⌝ : sProp 𝕄) := by
  iintro ⟨⟨Hx, %f, %hf, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := f)) $$ [HSI Ho]
  · isplitl [HSI] <;> iassumption
  icases H with %h2
  ipureintro
  have e : s'.mem.mem (oLoc d) = f := funext fun i => h2 i (Finset.mem_univ i)
  exact ⟨funext fun i => h1 i (Finset.mem_univ i), e ▸ hf⟩

/-! ## The program's run -/

/-- On every device the argument ends unchanged and the result at what the working task left. -/
def QC : PUnit × MemSt nD τ sig (Elt F) → Prop := fun r => ∀ c : Dev nD, r.2.mem (xLoc c) = m (xLoc c) ∧ Rel c (m (xLoc c)) (r.2.mem (oLoc c))

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.RunKI

end
-- ==== Proof.RunK.lean ====
/-
  The run of the kernel program as printed, for any float instance.

  The same kernel as the idealized program's, the ideal pass having rewritten nothing: one vector-subcore kernel on one
  SparseCore and its sixteen subcores, of which subcore 0 alone passes the guard and does the work — a copy of
  elements [0, 32) of the argument into a scratch vector and its wait, seven stores of sixteen elements into a second
  scratch vector, a copy of that vector's first hundred elements onto the whole result and its wait — while the other
  fifteen return at once. The call hands the argument and the result to subcore 0 only, and every weakly fair
  execution of the device's threads terminates with the argument unchanged.
-/
import proofs.«202516_g10806137717294_week1_w2_1257_7_alg».proof.Kernel
import Idealize.ShloMosaic.Lib.SparseCore.Launch
import Idealize.ShloMosaic.Lib.StableHlo.Run
import Idealize.ShloMosaic.Lib.Pipeline.Kit
import Idealize.ShloMosaic.Lib.Tactic
import proofs.«202516_g10806137717294_week1_w2_1257_7_alg».proof.Proof.Gen.Kernel
import proofs.«202516_g10806137717294_week1_w2_1257_7_alg».proof.Proof.Gen.Kernel.Skeleton
import proofs.«202516_g10806137717294_week1_w2_1257_7_alg».proof.Proof.RunKI

noncomputable section

namespace Cert.Proof.RunK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the counters of the task's own two copies

The task's two copies are local (HBM to its own memory and back), each waited for right after it is issued, so they
need no schedule: a counter per DMA semaphore is all the ghost state they take. -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The argument `x` and the result `o`, as locations of device `d`. -/
abbrev xLoc (d : Dev nD) : Loc nD τ sig := (SparseCore.T d).loc main_arg0
abbrev oLoc (d : Dev nD) : Loc nD τ sig := (SparseCore.T d).loc main_v0

variable [FloatOps F]

abbrev xV : Memref sig .scVector .hbm S100 .f32 := Memref.whole main_arg0_scv
abbrev oV : Memref sig .scVector .hbm S100 .f32 := Memref.whole main_v0_scv
/-- A task's two scratch vectors: 32 fetched elements of `x`, and the 112 elements it assembles. -/
abbrev sA : Memref sig .scVector .vmem S32 .f32 := Memref.whole cc0_scratch0
abbrev sB : Memref sig .scVector .vmem S112 .f32 := Memref.whole cc0_scratch1

abbrev xPts (d : Dev nD) : sProp 𝕄 := xLoc d ↦{fullShare} m (xLoc d)
abbrev oPts (d : Dev nD) (f : Buf (Elt F) (oLoc d)) : sProp 𝕄 := oLoc d ↦{fullShare} f

/-! ## What the working task leaves in the result, as a term of the argument

Elements `[0, 32)` of `x` land in the first scratch; the second scratch is filled by seven stores of sixteen
elements each — the doubled first sixteen, the doubled next sixteen masked to their first ten lanes, five vectors of
zeros — and its first hundred elements are copied onto the whole result. The prior contents of the scratches and
of the result enter the term, and drop out of its value (every element read was written first). -/

/-- What the fetch lands in the first scratch: `x` read through the slice `[0, 32)`. -/
def landed (x : S100.Idx → Elt F .f32) : S32.Idx → Elt F .f32 :=
  View.read (Elt F) (xV.slice (Rect.unit (s := S100) ![0] S32.size inb_S100_S32_0) (fun _ => rfl)).view x

/-- The first scratch after the fetch, over its prior contents `fs`. -/
def fetched (x : S100.Idx → Elt F .f32) (fs : S32.Idx → Elt F .f32) : S32.Idx → Elt F .f32 :=
  View.write (Elt F) (sA : Memref sig .scVector .vmem S32 .f32).view fs (landed x) Finset.univ

/-- The seven stores into the second scratch, the last one first. -/
def stores (x : S100.Idx → Elt F .f32) (fs : S32.Idx → Elt F .f32) : List (View.Piece (Elt F) S112 .f32) :=
  [⟨Rect.unit (s := S112) ![96] S16.size inb_S112_S16_96, k0_pay1 k0_pay4⟩,
    ⟨Rect.unit (s := S112) ![80] S16.size inb_S112_S16_80, k0_pay8⟩,
    ⟨Rect.unit (s := S112) ![64] S16.size inb_S112_S16_64, k0_pay7⟩,
    ⟨Rect.unit (s := S112) ![48] S16.size inb_S112_S16_48, k0_pay6⟩,
    ⟨Rect.unit (s := S112) ![32] S16.size inb_S112_S16_32, k0_pay5⟩,
    ⟨Rect.unit (s := S112) ![16] S16.size inb_S112_S16_16,
      k0_pay3 (View.readAt (Elt F) (sA : Memref sig .scVector .vmem S32 .f32).view (Rect.unit (s := S32) ![16] S16.size inb_S32_S16_16).toLoadRect (fetched x fs))⟩,
    ⟨Rect.unit (s := S112) ![0] S16.size inb_S112_S16_0,
      k0_pay2 (View.readAt (Elt F) (sA : Memref sig .scVector .vmem S32 .f32).view (Rect.unit (s := S32) ![0] S16.size inb_S32_S16_0).toLoadRect (fetched x fs))⟩]

/-- The result array after the write-out, over the prior contents `fs`, `fc` of the scratches and `fo` of the result. -/
def outK (x : S100.Idx → Elt F .f32) (fs : S32.Idx → Elt F .f32) (fc : S112.Idx → Elt F .f32) (fo : S100.Idx → Elt F .f32) : S100.Idx → Elt F .f32 :=
  View.write (Elt F) (oV : Memref sig .scVector .hbm S100 .f32).view fo
    (View.read (Elt F) ((sB : Memref sig .scVector .vmem S112 .f32).slice (Rect.unit (s := S112) ![0] S100.size inb_S112_S100_0) (fun _ => rfl)).view
      ((sB : Memref sig .scVector .vmem S112 .f32).view.writes (Elt F) fc (stores x fs))) Finset.univ

/-- The result holds what the working task leaves, from some prior contents. -/
def Rel (d : Dev nD) (x : Buf (Elt F) (xLoc d)) (f : Buf (Elt F) (oLoc d)) : Prop :=
  ∃ (fs : S32.Idx → Elt F .f32) (fc : S112.Idx → Elt F .f32) (fo : S100.Idx → Elt F .f32), f = outK x fs fc fo

/-! ## What the handshakes carry

The call hands the one SparseCore of its grid `x` and `o` whole; its sequencer hands both to subcore 0, the one task
that works, and nothing to the other fifteen; they come back the same way, `o` at what the task left. -/

def tileIn (d : Dev nD) (n : ℕ) : sProp 𝕄 := if n = 0 then iprop(xPts m d ∗ ∃ f, oPts d f) else iprop(emp)
def tileOut (d : Dev nD) (n : ℕ) : sProp 𝕄 := if n = 0 then iprop(xPts m d ∗ ∃ f, ⌜Rel d (m (xLoc d)) f⌝ ∗ oPts d f) else iprop(emp)

theorem tileIn_zero (d : Dev nD) : tileIn m d 0 = iprop(xPts m d ∗ ∃ f, oPts d f) := if_pos rfl
theorem tileOut_zero (d : Dev nD) : tileOut m d 0 = iprop(xPts m d ∗ ∃ f, ⌜Rel d (m (xLoc d)) f⌝ ∗ oPts d f) := if_pos rfl
theorem tileIn_pos (d : Dev nD) {n : ℕ} (h : n ≠ 0) : tileIn m d n = iprop(emp) := if_neg h
theorem tileOut_pos (d : Dev nD) {n : ℕ} (h : n ≠ 0) : tileOut m d n = iprop(emp) := if_neg h

instance tileIn_storable (d : Dev nD) (n : ℕ) : BI.Storable (upEmb : UEmb _ 𝕄) (tileIn m d n) := by
  unfold tileIn; split <;> infer_instance
instance tileOut_storable (d : Dev nD) (n : ℕ) : BI.Storable (upEmb : UEmb _ 𝕄) (tileOut m d n) := by
  unfold tileOut; split <;> infer_instance

def P : (K (F := F)).Pay (nD := nD) (Val := Elt F) (Name := ℕ) (U := UU) where
  st := fun _ d _ => iprop(xPts m d ∗ ∃ f, oPts d f)
  dn := fun _ d _ => iprop(xPts m d ∗ ∃ f, ⌜Rel d (m (xLoc d)) f⌝ ∗ oPts d f)
  go := fun _ d _ i => tileIn m d i.val
  td := fun _ d _ i => tileOut m d i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The task -/

section Tile

variable (d : Dev nD) (L : grid0.Coords)

abbrev cV (L : grid0.Coords) : Fin τ.nSC := (L 0).castLE hcore0
abbrev jV (L : grid0.Coords) : Fin τ.nSub := (L 1).castLE hsub0

/-- The two DMA semaphores of the task's copies. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The two scratch vectors are among the subcore's own buffers: they are those two, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The arrays as a subcore's memrefs address them are the device's arrays. -/
theorem pts_x (f : Buf (Elt F) (xLoc d)) :
    ((xV).view.loc (V d (cV L) (jV L)) ↦{fullShare} f : sProp 𝕄) = xLoc d ↦{fullShare} f := by
  simp only [Memref.view_whole, View.set_whole]
omit [FloatOps F] in
theorem pts_o (f : Buf (Elt F) (oLoc d)) :
    ((oV).view.loc (V d (cV L) (jV L)) ↦{fullShare} f : sProp 𝕄) = oLoc d ↦{fullShare} f := by
  simp only [Memref.view_whole, View.set_whole]
omit [FloatOps F] in
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
omit [FloatOps F] in
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl

/-- The kernel's guard at the coordinates `L` (core index zero and subcore index zero), as its text spells it. -/
abbrev guard (L : grid0.Coords) : BitVec 1 :=
  Scalar.cmpi .ne (Scalar.extui (Scalar.andi (Scalar.cmpi .eq (BitVec.ofNat 32 (L 0).val) 0#32) (Scalar.cmpi .eq (BitVec.ofNat 32 (L 1).val) 0#32))) 0#32

/-- Over the grid (one SparseCore, sixteen subcores) the guard holds exactly at subcore 0. -/
theorem guard_spec : ∀ (a : Fin (grid0.bound 0)) (s : Fin (grid0.bound 1)),
    (Scalar.cmpi .ne (Scalar.extui (Scalar.andi (Scalar.cmpi .eq (BitVec.ofNat 32 a.val) 0#32) (Scalar.cmpi .eq (BitVec.ofNat 32 s.val) 0#32))) 0#32 = 1#1) ↔ s.val = 0 := by
  decide

theorem guard_iff : guard L = 1#1 ↔ (L 1).val = 0 := guard_spec (L 0) (L 1)

/-- The working task: the fetch and its wait, the seven stores, the write-out and its wait. `x` comes back unchanged
    and `o` at `outK` of `x` and the prior contents. -/
theorem tile_work (hF : (K (F := F)).Facts) (hL : guard L = 1#1) (O : CellTallies nD τ sig (HIx 1)) (W : Waits sig (HIx 1)) (hO : ∀ g, O g none = 0) :
    iprop(levAts (K (F := F)).L (K (F := F)).lev ∗ emp ∗ (xPts m d ∗ ∃ f, oPts d f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__scatter_double L xV (Memref.isWhole_whole _) oV (Memref.isWhole_whole _) sA (Memref.isWhole_whole _) sB (Memref.isWhole_whole _) cc0_scoped0 cc0_scoped1)
          fun _ => iprop((xPts m d ∗ ∃ f, ⌜Rel d (m (xLoc d)) f⌝ ∗ oPts d f) ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 : guard L = 1#1 := hL
  simp only [cc0__scatter_double_eq_skeleton]; unfold cc0__scatter_double_skel
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%fs, Hs⟩, ⟨%fc, Hc⟩, Hbufs⟩, ⟨HsemA, HsemB, Hsems⟩, HO⟩
  ihave Hmw := ((K (F := F)).mayWaits_none (thr := V d (cV L) (jV L)) hO) $$ Hlv
  ihave Hx' := (Entails.of_eq (pts_x (F := F) d L _).symm) $$ Hx
  ihave Ho' := (Entails.of_eq (pts_o (F := F) d L _).symm) $$ Ho
  ihave Hs' := (Entails.of_eq (pts_sA (F := F) d L _).symm) $$ Hs
  ihave Hc' := (Entails.of_eq (pts_sB (F := F) d L _).symm) $$ Hc
  sl_exec
  sl_step
  isplitl [Hx' Ho']
  · isplitl [Hx']; · iapply (Entails.of_eq (pts_x (F := F) d L _)); iexact Hx'
    iexists _; isplitr
    · ipureintro; exact ⟨fs, fc, fo, rfl⟩
    · iapply (Entails.of_eq (pts_o (F := F) d L _)); iexact Ho'
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  iexact HO

/-- Any other task: the guard fails and the body returns at once. -/
theorem tile_idle (hL : ¬ guard L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__scatter_double L xV (Memref.isWhole_whole _) oV (Memref.isWhole_whole _) sA (Memref.isWhole_whole _) sB (Memref.isWhole_whole _) cc0_scoped0 cc0_scoped1)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h1 : ¬ guard L = 1#1 := hL
  simp only [cc0__scatter_double_eq_skeleton]; unfold cc0__scatter_double_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__scatter_double (coordsV c s)
          xV (Memref.isWhole_whole _) oV (Memref.isWhole_whole _) sA (Memref.isWhole_whole _) sB (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at the one call: subcore 0 runs `tile_work`, every other subcore `tile_idle`. -/
theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ tileIn m d i.val ∗ _) ⊢ wp _ _ _ _ (fun _ => iprop(tileOut m d i.val ∗ _))
  by_cases hi : i.val = 0
  · rw [hi, tileIn_zero, tileOut_zero]
    exact (tile_work m d (coordsV ⟨_, hc.1⟩ ⟨_, hc.2⟩) hF ((guard_iff _).mpr hi) O W hO).trans (wp_mono frame _ _ fun _ => obl_post)
  · rw [tileIn_pos m d hi, tileOut_pos m d hi]
    exact (tile_idle d (coordsV ⟨_, hc.1⟩ ⟨_, hc.2⟩) (fun h => hi ((guard_iff _).mp h)) O W).trans (wp_mono frame _ _ fun _ => obl_post)

omit [FloatOps F] in
theorem bigSep_emp' {I : Type} (s : Finset I) : (bigSep s fun _ => iprop(emp)) = (iprop(emp) : sProp 𝕄) := bigSep_emp_const s

omit [FloatOps F] in
/-- A family over the sixteen tasks that is `emp` off task 0 is its member at task 0. -/
theorem tasks_eq (Φ : ℕ → sProp 𝕄) (h : ∀ n, n ≠ 0 → Φ n = iprop(emp)) :
    (bigSep Finset.univ fun i : Fin ((K (F := F)).nSub 0) => Φ i.val) = iprop(Φ 0 ∗ emp) := by
  show (bigSep (Finset.univ : Finset (Fin 16)) fun i => Φ i.val) = _
  rw [SparseCore.bigSep_erase' (Finset.mem_univ (0 : Fin 16)),
    bigSep_congr (fun i hi => h i.val (fun e => (Finset.mem_erase.mp hi).1 (Fin.ext e))), bigSep_emp']
  rfl

theorem vecSplit : (K (F := F)).VecSplit' (P m) 0 := by
  intro d c
  show iprop(xPts m d ∗ ∃ f, oPts d f) ⊢ |={Set.univ}=> iprop(
      (bigSep Finset.univ fun i : Fin ((K (F := F)).nSub 0) => tileIn m d i.val)
      ∗ ((bigSep Finset.univ fun i : Fin ((K (F := F)).nSub 0) => tileOut m d i.val)
          -∗ iprop(xPts m d ∗ ∃ f, ⌜Rel d (m (xLoc d)) f⌝ ∗ oPts d f)))
  rw [tasks_eq (F := F) (tileIn m d) (fun n hn => tileIn_pos m d hn), tasks_eq (F := F) (tileOut m d) (fun n hn => tileOut_pos m d hn),
    tileIn_zero, tileOut_zero]
  iintro H; imodintro
  isplitl [H]
  · isplitl [H]; · iexact H
    iempintro
  iintro ⟨H, -⟩; iexact H

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c) = iprop(xPts m d ∗ ∃ f, oPts d f) :=
  bigSep_univ_of_subsingleton (0 : Fin 1)
theorem dn0_eq (d : Dev nD) : (bigSep Finset.univ fun c : Fin ((K (F := F)).nCore 0) => (P m).dn 0 d c) = iprop(xPts m d ∗ ∃ f, ⌜Rel d (m (xLoc d)) f⌝ ∗ oPts d f) :=
  bigSep_univ_of_subsingleton (0 : Fin 1)

/-- What @main leaves the claim: `x` at its launch contents, `o` at what the working task left. -/
abbrev FIN (d : Dev nD) : sProp 𝕄 := iprop(xPts m d ∗ ∃ f, ⌜Rel d (m (xLoc d)) f⌝ ∗ oPts d f)

/-- @main on device `d`'s TensorCore: the one call, from `x` and `o` whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexists _; iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (xLoc d) = m (xLoc d) ∧ Rel d (m (xLoc d)) (s'.mem.mem (oLoc d))

theorem hfin (d : Dev nD) (s' : Phys nD τ sig (Elt F)) : iprop(FIN m d ∗ SI s') ⊢ (⌜fq m d s'⌝ : sProp 𝕄) := by
  iintro ⟨⟨Hx, %f, %hf, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := f)) $$ [HSI Ho]
  · isplitl [HSI] <;> iassumption
  icases H with %h2
  ipureintro
  have e : s'.mem.mem (oLoc d) = f := funext fun i => h2 i (Finset.mem_univ i)
  exact ⟨funext fun i => h1 i (Finset.mem_univ i), e ▸ hf⟩

/-! ## The program's run -/

/-- On every device the argument ends unchanged and the result at what the working task left. -/
def QC : PUnit × MemSt nD τ sig (Elt F) → Prop := fun r => ∀ c : Dev nD, r.2.mem (xLoc c) = m (xLoc c) ∧ Rel c (m (xLoc c)) (r.2.mem (oLoc c))

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.RunK

end
-- ==== Proof.Spec.lean ====
/-
  The common value of the two programs.

  Both compute, from a vector `x` of a hundred floats, the vector whose first twenty-six elements are `x`'s doubled
  and whose other seventy-four are zero. The product and the two constants are written with the float instance's own
  operations and the constants' bit patterns, so the statement holds at every float instance and no arithmetic on the
  extended reals is needed to compare the two sides: each is this one function, element by element.
-/
import Idealize.ShloMosaic.PureOps
import Idealize.ShloMosaic.Lib.ValueIdx

namespace Cert.Proof.Spec

open Idealize.ShloMosaic

/-- `x[i] * 2` for `i < 26`, `0` for `26 ≤ i < 100`. -/
def doubledHead {F : FTy → Type} [FloatOps F] (x : FVec F ⟨1, ![100]⟩ .f32) : FVec F ⟨1, ![100]⟩ .f32 :=
  fun i => if (i 0).val < 26 then FloatOps.mulf (x i) (FloatOps.ofBits .f32 0x40000000#32) else FloatOps.ofBits .f32 0x00000000#32

end Cert.Proof.Spec
-- ==== Proof.KernelValue.lean ====
/-
  The working task's result is the common value.

  The term `outK` the run leaves in the result reads, element by element: the write-out copies elements [0, 100) of the
  second scratch vector; that vector was filled by seven stores of sixteen elements that tile [0, 112) — so whatever it
  held before drops out —; the store at [0, 16) holds `x[k] * 2`, the store at [16, 32) holds `x[16 + k] * 2` on lanes
  `k < 10` and zero on the others, and the five stores from 32 on hold zeros. All seven are pieces of ONE function of
  the scratch index: the common value at an index below 100 (zero from 26 on), zero above. Read through the
  write-out that is the common value.
-/
import proofs.«202516_g10806137717294_week1_w2_1257_7_alg».proof.Proof.RunKI
import proofs.«202516_g10806137717294_week1_w2_1257_7_alg».proof.Proof.Spec
import Idealize.ShloMosaic.Lib.Pipeline.Value
import Idealize.ShloMosaic.Lib.ValueIdx

noncomputable section

namespace Cert.Proof.KernelValue

open Cert.KernelIdeal Cert.KernelIdeal.Gen Cert.Proof.RunKI Idealize.ShloMosaic Idealize.ShloMosaic.ValueIdx

variable {F : FTy → Type} [FloatOps F]

/-- Two indices of a vector agree when their one coordinate does. -/
theorem idx1_ext {n : Nat} {i j : (⟨1, ![n]⟩ : Shape).Idx} (h : (i 0).val = (j 0).val) : i = j := by
  funext a
  match a with
  | ⟨0, _⟩ => exact Fin.ext h

/-- What the second scratch vector holds once the seven stores are made, as one function of its index. -/
def staged (x : S100.Idx → F .f32) : S112.Idx → F .f32 := fun y =>
  if h : (y 0).val < 100 then Spec.doubledHead x (ix1 ⟨(y 0).val, h⟩) else FloatOps.ofBits .f32 0x00000000#32

theorem staged_of_lt (x : S100.Idx → F .f32) (y : S112.Idx) (h : (y 0).val < 26) :
    staged x y = FloatOps.mulf (x (ix1 ⟨(y 0).val, by omega⟩)) (FloatOps.ofBits .f32 0x40000000#32) := by
  unfold staged Spec.doubledHead
  rw [dif_pos (by omega)]
  exact if_pos h

theorem staged_of_ge (x : S100.Idx → F .f32) (y : S112.Idx) (h : 26 ≤ (y 0).val) :
    staged x y = FloatOps.ofBits .f32 0x00000000#32 := by
  unfold staged Spec.doubledHead
  by_cases h100 : (y 0).val < 100
  · rw [dif_pos h100]; exact if_neg (by show ¬ (y 0).val < 26; omega)
  · exact dif_neg h100

/-! ## The first scratch vector after the fetch -/

/-- Element `k` of what the fetch lands is element `k` of `x`. -/
theorem landed_apply (x : S100.Idx → Elt F .f32) (k : S32.Idx) (i : S100.Idx) (h : (i 0).val = (k 0).val) : landed x k = x i := by
  unfold landed
  rw [View.read_apply]
  refine (cast_eq _ _).trans (congrArg x (idx1_ext ?_))
  rw [h]
  show 0 + 1 * (k 0).val = (k 0).val
  omega

theorem fetched_apply (x : S100.Idx → Elt F .f32) (fs : S32.Idx → Elt F .f32) (k : S32.Idx) (i : S100.Idx) (h : (i 0).val = (k 0).val) :
    fetched x fs k = x i := by
  unfold fetched
  exact (congrFun (View.write_whole_univ (Val := Elt F) cc0_scratch0 fs (landed x)) k).trans (landed_apply x k i h)

/-! ## The seven stores, each a piece of `staged` -/

/-- The store at [0, 16): `x[k] * 2`. -/
theorem piece_head (x : S100.Idx → Elt F .f32) (fs : S32.Idx → Elt F .f32) (k : S16.Idx) :
    k0_pay2 (View.readAt (Elt F) (sA : Memref sig .scVector .vmem S32 .f32).view (Rect.unit (s := S32) ![0] S16.size inb_S32_S16_0).toLoadRect (fetched x fs)) k
      = staged x ((Rect.unit (s := S112) ![0] S16.size inb_S112_S16_0).emb k) := by
  have hk : (k 0).val < 16 := (k 0).isLt
  have he : ((Rect.unit (s := S112) ![0] S16.size inb_S112_S16_0).emb k 0).val = (k 0).val := by
    show 0 + 1 * (k 0).val = (k 0).val; omega
  rw [staged_of_lt x _ (by rw [he]; omega)]
  unfold k0_pay2
  simp only [shapeCast_self]
  show FloatOps.mulf (View.readAt (Elt F) (sA : Memref sig .scVector .vmem S32 .f32).view (Rect.unit (s := S32) ![0] S16.size inb_S32_S16_0).toLoadRect (fetched x fs) k) _ = _
  congr 1
  rw [View.readAt_apply]
  refine (congrFun (View.read_whole (Val := Elt F) cc0_scratch0 (fetched x fs)) _).trans (fetched_apply x fs _ _ ?_)
  rfl

/-- Lane `n` of a sixteen-lane iota is below ten exactly when `n < 10`. -/
theorem lane_lt : ∀ n : Fin 16, IntOp.cmpi .slt (BitVec.ofNat 32 n.val) 10#32 = 1 ↔ n.val < 10 := by decide

/-- The store at [16, 32): `x[16 + k] * 2` on the first ten lanes, zero on the other six. -/
theorem piece_mid (x : S100.Idx → Elt F .f32) (fs : S32.Idx → Elt F .f32) (k : S16.Idx) :
    k0_pay3 (View.readAt (Elt F) (sA : Memref sig .scVector .vmem S32 .f32).view (Rect.unit (s := S32) ![16] S16.size inb_S32_S16_16).toLoadRect (fetched x fs)) k
      = staged x ((Rect.unit (s := S112) ![16] S16.size inb_S112_S16_16).emb k) := by
  have hk : (k 0).val < 16 := (k 0).isLt
  have he : ((Rect.unit (s := S112) ![16] S16.size inb_S112_S16_16).emb k 0).val = 16 + (k 0).val := by
    show 16 + 1 * (k 0).val = 16 + (k 0).val; omega
  unfold k0_pay3
  simp only [shapeCast_self]
  show Scalar.select (IntOp.cmpi .slt (iota .scVector S16 32 [0] iota_S16_d0_w32_scVector k) 10#32)
      (FloatOps.mulf (View.readAt (Elt F) (sA : Memref sig .scVector .vmem S32 .f32).view (Rect.unit (s := S32) ![16] S16.size inb_S32_S16_16).toLoadRect (fetched x fs) k) (FloatOps.ofBits .f32 0x40000000#32))
      (FloatOps.ofBits .f32 0x00000000#32) = _
  rw [iota_single_apply]
  unfold Scalar.select
  by_cases h10 : (k 0).val < 10
  · rw [if_pos ((lane_lt ⟨(k 0).val, hk⟩).mpr h10), staged_of_lt x _ (by rw [he]; omega)]
    congr 1
    rw [View.readAt_apply]
    refine (congrFun (View.read_whole (Val := Elt F) cc0_scratch0 (fetched x fs)) _).trans (fetched_apply x fs _ _ ?_)
    rfl
  · rw [if_neg (fun h => h10 ((lane_lt ⟨(k 0).val, hk⟩).mp h)), staged_of_ge x _ (by rw [he]; omega)]

/-- A store of zeros at an offset from 26 on. -/
theorem piece_zero (x : S100.Idx → Elt F .f32) (c : ℕ) (hc : 26 ≤ c) (inb : ∀ a, (![c] : Fin 1 → Nat) a + S16.size a ≤ S112.size a)
    (w : S16.Idx → Elt F .f32) (hw : ∀ k, w k = FloatOps.ofBits .f32 0x00000000#32) (k : S16.Idx) :
    w k = staged x ((Rect.unit (s := S112) ![c] S16.size inb).emb k) := by
  have he : ((Rect.unit (s := S112) ![c] S16.size inb).emb k 0).val = c + 1 * (k 0).val := rfl
  rw [hw, staged_of_ge x _ (by rw [he]; omega)]

theorem zeros_apply (k : S16.Idx) : k0_pay4 (F := F) k = FloatOps.ofBits .f32 0x00000000#32 := rfl
theorem pay5_apply (k : S16.Idx) : k0_pay5 (F := F) k = FloatOps.ofBits .f32 0x00000000#32 := by
  unfold k0_pay5; simp only [shapeCast_self]; rfl
theorem pay6_apply (k : S16.Idx) : k0_pay6 (F := F) k = FloatOps.ofBits .f32 0x00000000#32 := by
  unfold k0_pay6; simp only [shapeCast_self]; rfl
theorem pay7_apply (k : S16.Idx) : k0_pay7 (F := F) k = FloatOps.ofBits .f32 0x00000000#32 := by
  unfold k0_pay7; simp only [shapeCast_self]; rfl
theorem pay8_apply (k : S16.Idx) : k0_pay8 (F := F) k = FloatOps.ofBits .f32 0x00000000#32 := by
  unfold k0_pay8; simp only [shapeCast_self]; rfl
theorem pay1_apply (k : S16.Idx) : k0_pay1 (k0_pay4 (F := F)) k = FloatOps.ofBits .f32 0x00000000#32 := by
  unfold k0_pay1; simp only [shapeCast_self]; rfl

/-- The seven stores, by their offsets. -/
def st0 (x : S100.Idx → Elt F .f32) (fs : S32.Idx → Elt F .f32) : View.Piece (Elt F) S112 .f32 :=
  ⟨Rect.unit (s := S112) ![0] S16.size inb_S112_S16_0,
    k0_pay2 (View.readAt (Elt F) (sA : Memref sig .scVector .vmem S32 .f32).view (Rect.unit (s := S32) ![0] S16.size inb_S32_S16_0).toLoadRect (fetched x fs))⟩
def st16 (x : S100.Idx → Elt F .f32) (fs : S32.Idx → Elt F .f32) : View.Piece (Elt F) S112 .f32 :=
  ⟨Rect.unit (s := S112) ![16] S16.size inb_S112_S16_16,
    k0_pay3 (View.readAt (Elt F) (sA : Memref sig .scVector .vmem S32 .f32).view (Rect.unit (s := S32) ![16] S16.size inb_S32_S16_16).toLoadRect (fetched x fs))⟩
def st32 : View.Piece (Elt F) S112 .f32 := ⟨Rect.unit (s := S112) ![32] S16.size inb_S112_S16_32, k0_pay5⟩
def st48 : View.Piece (Elt F) S112 .f32 := ⟨Rect.unit (s := S112) ![48] S16.size inb_S112_S16_48, k0_pay6⟩
def st64 : View.Piece (Elt F) S112 .f32 := ⟨Rect.unit (s := S112) ![64] S16.size inb_S112_S16_64, k0_pay7⟩
def st80 : View.Piece (Elt F) S112 .f32 := ⟨Rect.unit (s := S112) ![80] S16.size inb_S112_S16_80, k0_pay8⟩
def st96 : View.Piece (Elt F) S112 .f32 := ⟨Rect.unit (s := S112) ![96] S16.size inb_S112_S16_96, k0_pay1 k0_pay4⟩

theorem stores_eq (x : S100.Idx → Elt F .f32) (fs : S32.Idx → Elt F .f32) :
    stores x fs = [st96, st80, st64, st48, st32, st16 x fs, st0 x fs] := rfl

/-- Every store's payload is `staged` at the store's indices. -/
theorem stores_agree (x : S100.Idx → Elt F .f32) (fs : S32.Idx → Elt F .f32) :
    ∀ p ∈ stores x fs, ∀ k : p.1.shape.Idx, p.2 k = staged x (p.1.emb k) := by
  intro p hp
  rw [stores_eq] at hp
  simp only [List.mem_cons, List.not_mem_nil, or_false] at hp
  rcases hp with rfl | rfl | rfl | rfl | rfl | rfl | rfl
  · exact fun k => piece_zero x 96 (by omega) inb_S112_S16_96 _ pay1_apply k
  · exact fun k => piece_zero x 80 (by omega) inb_S112_S16_80 _ pay8_apply k
  · exact fun k => piece_zero x 64 (by omega) inb_S112_S16_64 _ pay7_apply k
  · exact fun k => piece_zero x 48 (by omega) inb_S112_S16_48 _ pay6_apply k
  · exact fun k => piece_zero x 32 (by omega) inb_S112_S16_32 _ pay5_apply k
  · exact fun k => piece_mid x fs k
  · exact fun k => piece_head x fs k

/-- An index in `[c, c + 16)` is under the store at offset `c`. -/
theorem under (c : ℕ) (inb : ∀ a, (![c] : Fin 1 → Nat) a + S16.size a ≤ S112.size a) (y : S112.Idx)
    (h1 : c ≤ (y 0).val) (h2 : (y 0).val < c + 16) : y ∈ (Rect.unit (s := S112) ![c] S16.size inb).set :=
  Rect.mem_set_unit.mpr fun a => match a with
    | ⟨0, _⟩ => ⟨h1, h2⟩

/-- The seven stores tile the second scratch vector. -/
theorem stores_cover (x : S100.Idx → Elt F .f32) (fs : S32.Idx → Elt F .f32) (y : S112.Idx) : ∃ p ∈ stores x fs, y ∈ p.1.set := by
  have hy : (y 0).val < 112 := (y 0).isLt
  obtain h | h | h | h | h | h | h : (y 0).val < 16 ∨ (16 ≤ (y 0).val ∧ (y 0).val < 32) ∨ (32 ≤ (y 0).val ∧ (y 0).val < 48)
      ∨ (48 ≤ (y 0).val ∧ (y 0).val < 64) ∨ (64 ≤ (y 0).val ∧ (y 0).val < 80) ∨ (80 ≤ (y 0).val ∧ (y 0).val < 96) ∨ 96 ≤ (y 0).val := by omega
  · exact ⟨st0 x fs, by rw [stores_eq]; simp only [List.mem_cons, true_or, or_true], under 0 inb_S112_S16_0 y (by omega) (by omega)⟩
  · exact ⟨st16 x fs, by rw [stores_eq]; simp only [List.mem_cons, true_or, or_true], under 16 inb_S112_S16_16 y h.1 (by omega)⟩
  · exact ⟨st32, by rw [stores_eq]; simp only [List.mem_cons, true_or, or_true], under 32 inb_S112_S16_32 y h.1 (by omega)⟩
  · exact ⟨st48, by rw [stores_eq]; simp only [List.mem_cons, true_or, or_true], under 48 inb_S112_S16_48 y h.1 (by omega)⟩
  · exact ⟨st64, by rw [stores_eq]; simp only [List.mem_cons, true_or, or_true], under 64 inb_S112_S16_64 y h.1 (by omega)⟩
  · exact ⟨st80, by rw [stores_eq]; simp only [List.mem_cons, true_or, or_true], under 80 inb_S112_S16_80 y h.1 (by omega)⟩
  · exact ⟨st96, by rw [stores_eq]; simp only [List.mem_cons, true_or, or_true], under 96 inb_S112_S16_96 y h (by omega)⟩

/-! ## The result -/

/-- What the working task leaves in the result is the common value of `x`, whatever the scratches and the result held. -/
theorem outK_eq [∀ e, Nonempty (Elt F e)] (x : S100.Idx → Elt F .f32) (fs : S32.Idx → Elt F .f32) (fc : S112.Idx → Elt F .f32) (fo : S100.Idx → Elt F .f32) :
    outK x fs fc fo = Spec.doubledHead x := by
  funext i
  have hi : (i 0).val < 100 := (i 0).isLt
  unfold outK
  refine (congrFun (View.write_whole_univ (Val := Elt F) main_v0_scv fo _) i).trans ?_
  rw [View.read_apply]
  refine (cast_eq _ _).trans ?_
  have hcanon := View.read_writes_apply_eq_canon (View.whole (cc0_scratch1 : Ref sig .scVector)) fc
    (((sB : Memref sig .scVector .vmem S112 .f32).slice (Rect.unit (s := S112) ![0] S100.size inb_S112_S100_0) (fun _ => rfl)).view.emb i)
    (stores x fs) (stores_cover x fs _)
  refine (show _ = _ from hcanon).trans ?_
  rw [View.canon_apply_of_pieces (staged x) (stores x fs) (stores_agree x fs) _ (stores_cover x fs _)]
  have he : ((((sB : Memref sig .scVector .vmem S112 .f32).slice (Rect.unit (s := S112) ![0] S100.size inb_S112_S100_0) (fun _ => rfl)).view.emb i) 0).val = (i 0).val := by
    show 0 + 1 * (i 0).val = (i 0).val; omega
  unfold staged
  rw [dif_pos (by rw [he]; exact hi)]
  exact congrArg (Spec.doubledHead x) (idx1_ext he)

/-- So a result in the run's relation to `x` is the common value of `x`. -/
theorem of_rel [∀ e, Nonempty (Elt F e)] (d : Dev nD) (x : Buf (Elt F) (xLoc d)) (f : Buf (Elt F) (oLoc d)) (h : Rel d x f) :
    f = Spec.doubledHead (F := F) x := by
  obtain ⟨fs, fc, fo, rfl⟩ := h
  exact outK_eq x fs fc fo

end Cert.Proof.KernelValue

end
-- ==== Proof.LibScatterSet.lean ====
/-
  Overwriting scatters at pairwise distinct result indices.

  A scatter whose body returns the update (`x.at[idx].set(v)`) is a left fold over the update indices: each step
  replaces the running array's element at the update's result index, when that index is inside the operand, and
  leaves the array alone otherwise. When no two update indices land on the same element, the order of the fold does
  not matter and the result can be read element by element: an element some update lands on holds that update, and
  every other element is the operand's.
-/
import Idealize.ShloMosaic.PureOps

namespace Cert.Lib.ScatterSet

open Idealize.ShloMosaic

/-- One step of an overwriting scatter: the update `n` replaces the element its result index `ρ n` names, if any. -/
def step {ι κ α : Type} [DecidableEq κ] (ρ : ι → Option κ) (v : ι → α) (r : κ → α) (n : ι) : κ → α :=
  match ρ n with
  | some i => fun i' => if i' = i then v n else r i'
  | none => r

theorem step_of_some {ι κ α : Type} [DecidableEq κ] (ρ : ι → Option κ) (v : ι → α) (r : κ → α) (n : ι) (i : κ)
    (h : ρ n = some i) : step ρ v r n i = v n := by
  unfold step; rw [h]; exact if_pos rfl

theorem step_of_ne {ι κ α : Type} [DecidableEq κ] (ρ : ι → Option κ) (v : ι → α) (r : κ → α) (n : ι) (i : κ)
    (h : ρ n ≠ some i) : step ρ v r n i = r i := by
  unfold step
  cases hn : ρ n with
  | none => rfl
  | some j =>
    have hij : i ≠ j := fun e => h (by rw [hn, e])
    exact if_neg hij

/-- The fold of overwriting steps over a list of update indices without repetition, no two of which land on one
    element: an element the update `n` of the list lands on holds `v n`; an element none lands on is untouched. -/
theorem foldl_step {ι κ α : Type} [DecidableEq κ] (ρ : ι → Option κ) (v : ι → α) :
    ∀ (l : List ι), l.Nodup → (∀ n ∈ l, ∀ n' ∈ l, ∀ i, ρ n = some i → ρ n' = some i → n = n') → ∀ (x : κ → α),
      (∀ n ∈ l, ∀ i, ρ n = some i → l.foldl (step ρ v) x i = v n)
      ∧ (∀ i, (∀ n ∈ l, ρ n ≠ some i) → l.foldl (step ρ v) x i = x i) := by
  intro l
  induction l with
  | nil => intro _ _ x; exact ⟨fun n hn => absurd hn (List.not_mem_nil), fun i _ => rfl⟩
  | cons a t ih =>
    intro hnd hinj x
    have hnd' := List.nodup_cons.mp hnd
    have hinj' : ∀ n ∈ t, ∀ n' ∈ t, ∀ i, ρ n = some i → ρ n' = some i → n = n' :=
      fun n hn n' hn' => hinj n (List.mem_cons_of_mem a hn) n' (List.mem_cons_of_mem a hn')
    obtain ⟨ih1, ih2⟩ := ih hnd'.2 hinj' (step ρ v x a)
    refine ⟨fun n hn i hi => ?_, fun i hi => ?_⟩
    · rw [List.foldl_cons]
      rcases List.mem_cons.mp hn with rfl | hn
      · have hnone : ∀ n' ∈ t, ρ n' ≠ some i := fun n' hn' e =>
          hnd'.1 ((hinj n' (List.mem_cons_of_mem _ hn') n (List.mem_cons_self) i e hi) ▸ hn')
        rw [ih2 i hnone]; exact step_of_some ρ v x n i hi
      · exact ih1 n hn i hi
    · rw [List.foldl_cons, ih2 i (fun n hn => hi n (List.mem_cons_of_mem a hn))]
      exact step_of_ne ρ v x a i (hi a List.mem_cons_self)

/-- `Host.scatter` with the body that returns the update, when no two update indices land on one element of the
    operand: the element update index `j` lands on holds `upd j`, and an element no update lands on is the operand's. -/
theorem scatter_set {α : Type} {s si u : Shape} {w : Nat} (d : ScatterDims s si u) (x : s.Idx → α) (idx : IVec si w) (upd : u.Idx → α)
    (hinj : ∀ j j' i, d.resultIdx? j idx = some i → d.resultIdx? j' idx = some i → j = j') :
    (∀ j i, d.resultIdx? j idx = some i → Host.scatter d (fun _ b => b) x idx upd i = upd j)
    ∧ (∀ i, (∀ j, d.resultIdx? j idx ≠ some i) → Host.scatter d (fun _ b => b) x idx upd i = x i) := by
  have key := foldl_step (fun n : Fin u.numel => d.resultIdx? (u.rowMajor.symm n) idx) (fun n => upd (u.rowMajor.symm n))
    (List.finRange u.numel) (List.nodup_finRange _)
    (fun n _ n' _ i h h' => u.rowMajor.symm.injective (hinj _ _ i h h')) x
  have hfold : Host.scatter d (fun _ b => b) x idx upd
      = (List.finRange u.numel).foldl (step (fun n : Fin u.numel => d.resultIdx? (u.rowMajor.symm n) idx) (fun n => upd (u.rowMajor.symm n))) x := by
    unfold Host.scatter
    congr 1
    funext r n
    unfold step
    dsimp only
    cases d.resultIdx? (u.rowMajor.symm n) idx with
    | none => rfl
    | some i =>
      funext i'
      by_cases h : i' = i
      · simp only [h, if_true]
      · simp only [h, if_false]
  rw [hfold]
  refine ⟨fun j i hj => ?_, fun i hi => key.2 i (fun n _ => hi _)⟩
  have := key.1 (u.rowMajor j) (List.mem_finRange _) i (by rw [Equiv.symm_apply_apply]; exact hj)
  rw [this, Equiv.symm_apply_apply]

end Cert.Lib.ScatterSet
-- ==== Proof.RefValue.lean ====
/-
  The reference's result is the common value.

  The reference starts from a hundred zeros and scatters the twenty-six doubled elements `x[0..26) * 2` at the indices
  `select (iota < 0) (iota + 100) iota`, which are `0, 1, …, 25`: update `j` lands on element `j`. The landing
  indices are pairwise distinct, so the scatter reads element by element: element `i < 26` holds update `i`, and an
  element from 26 on is hit by no update and keeps its zero.
-/
import proofs.«202516_g10806137717294_week1_w2_1257_7_alg».proof.Proof.Gen.ReferenceIdeal.Read
import proofs.«202516_g10806137717294_week1_w2_1257_7_alg».proof.Proof.LibScatterSet
import proofs.«202516_g10806137717294_week1_w2_1257_7_alg».proof.Proof.Spec
import Idealize.ShloMosaic.PureOps.Ideal
import Idealize.ShloMosaic.Lib.ValueIdx

noncomputable section

namespace Cert.Proof.RefValue

open Cert.ReferenceIdeal Cert.ReferenceIdeal.Gen Cert.ReferenceIdeal.Read Idealize.ShloMosaic

/-- Update `n` of the scatter lands on element `n` of the operand: the index list is `0, …, 25`, read signed, inside the
    hundred elements. Decided over the twenty-six updates. -/
theorem lands_all : ∀ n : Fin S26.numel,
    scatter_S100_S26x1_S26_n_0_0_1.resultIdx? (S26.rowMajor.symm n) (val_main_v10 (F := Ideal)) = some (idx_main_v2 (S26.rowMajor.symm n)) := by
  decide +kernel

theorem lands (j : S26.Idx) :
    scatter_S100_S26x1_S26_n_0_0_1.resultIdx? j (val_main_v10 (F := Ideal)) = some (idx_main_v2 j) := by
  have h := lands_all (S26.rowMajor j)
  rwa [Equiv.symm_apply_apply] at h

/-- Distinct updates land on distinct elements. -/
theorem idx_main_v2_injective : Function.Injective idx_main_v2 := fun j j' h => by
  funext a
  match a with
  | ⟨0, _⟩ => exact Fin.ext (congrArg (fun i : S100.Idx => (i 0).val) h)

/-- The reference's result, as the Read module names it, is the common value of `x`. -/
theorem ref_value (x : (⟨S100, .f32⟩ : BufTy).Contents (Elt Ideal)) :
    val_main_v11 (F := Ideal) x = Spec.doubledHead (F := Ideal) x := by
  obtain ⟨hhit, hmiss⟩ := Cert.Lib.ScatterSet.scatter_set scatter_S100_S26x1_S26_n_0_0_1 (val_main_v0 (F := Ideal))
    (val_main_v10 (F := Ideal)) (val_main_v4 (F := Ideal) x)
    (fun j j' i hj hj' => idx_main_v2_injective (Option.some.inj ((lands j).symm.trans (hj.trans (hj'.symm.trans (lands j'))))))
  funext i
  unfold val_main_v11 Spec.doubledHead
  by_cases hi : (i 0).val < 26
  · rw [if_pos hi]
    have hj : scatter_S100_S26x1_S26_n_0_0_1.resultIdx? (ValueIdx.ix1 (⟨(i 0).val, hi⟩ : Fin 26)) (val_main_v10 (F := Ideal)) = some i := by
      rw [lands]; congr 1; funext a
      match a with
      | ⟨0, _⟩ => exact Fin.ext rfl
    rw [hhit _ i hj, val_main_v4_apply, val_main_v2_apply, val_main_v3_apply, val_main_cst_0_apply]
    congr 2; funext a
    match a with
    | ⟨0, _⟩ => exact Fin.ext rfl
  · rw [if_neg hi, hmiss i (fun j hj => hi (by
      have e : idx_main_v2 j = i := Option.some.inj ((lands j).symm.trans hj)
      rw [← e]; exact (j 0).isLt)), val_main_v0_apply, val_main_cst_apply]

end Cert.Proof.RefValue

end
-- ==== Proof.lean ====
/-
  The certificate's five conjuncts.

  The kernel doubles the first twenty-six of a hundred floats and zeroes the rest, on one vector subcore of a
  SparseCore: it fetches elements [0, 32), stores `x[0..16) * 2`, then `x[16..32) * 2` masked to its first ten lanes,
  then zeros up to element 112, and writes the first hundred out. The reference scatters `x[0..26) * 2` at the indices
  0, …, 25 into a hundred zeros. Both are one function of `x`, element by element, with the same product and the same
  two constants on both sides, so they agree on every extended real and the precondition is never opened.

  The kernel programs' frames are their runs (the launch of the subcores, the working task's body run step by step,
  the idle tasks' immediate return) with the result's value dropped; the reference's frame is its generated run with
  the value dropped; the idealization rewrote nothing, so `preserves` is trivial; `algebraic` reads both runs at
  the common value.
-/
import proofs.«202516_g10806137717294_week1_w2_1257_7_alg».proof.Defs
import proofs.«202516_g10806137717294_week1_w2_1257_7_alg».proof.Proof.Gen.Kernel
import proofs.«202516_g10806137717294_week1_w2_1257_7_alg».proof.Proof.Gen.Kernel.Skeleton
import proofs.«202516_g10806137717294_week1_w2_1257_7_alg».proof.Proof.Gen.KernelIdeal
import proofs.«202516_g10806137717294_week1_w2_1257_7_alg».proof.Proof.Gen.KernelIdeal.Skeleton
import proofs.«202516_g10806137717294_week1_w2_1257_7_alg».proof.Proof.Gen.ReferenceIdeal
import proofs.«202516_g10806137717294_week1_w2_1257_7_alg».proof.Proof.Gen.Pre_finite_inputs
import proofs.«202516_g10806137717294_week1_w2_1257_7_alg».proof.Proof.Gen.ReferenceIdeal.Read
import proofs.«202516_g10806137717294_week1_w2_1257_7_alg».proof.Proof.RunKI
import proofs.«202516_g10806137717294_week1_w2_1257_7_alg».proof.Proof.RunK
import proofs.«202516_g10806137717294_week1_w2_1257_7_alg».proof.Proof.KernelValue
import proofs.«202516_g10806137717294_week1_w2_1257_7_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its argument unchanged. -/
theorem frame_kernel : Cert.frame_Kernel := fun m ρ _ =>
  (θ_run Cert.Kernel.defs _ _).mono (fun _ h c => (h c).1) (RunK.run_main (F := Bits) m ρ)

/-- So does the idealized kernel. -/
theorem frame_kernelIdeal : Cert.frame_KernelIdeal := fun m ρ _ =>
  (θ_run Cert.KernelIdeal.defs _ _).mono (fun _ h c => (h c).1) (RunKI.run_main (F := Ideal) m ρ)

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result at `x[i] * 2` for `i < 26` and zero from 26 on. -/
theorem algebraic : Cert.algebraic_KernelIdeal_ReferenceIdeal := by
  intro m ρ m' ρ' _ hagree
  refine ⟨fun c => Spec.doubledHead (F := Ideal) (m ((c.tc : Thread Cert.KernelIdeal.nD Cert.KernelIdeal.τ).loc Cert.KernelIdeal.main_arg0)), ?_, ?_⟩
  · exact (θ_run Cert.KernelIdeal.defs _ _).mono (fun _ h c => ⟨KernelValue.of_rel c _ _ (h c).2, (h c).1⟩) (RunKI.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v11_eq, RefValue.ref_value, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
